-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S8192x256 .f32) (main_arg1 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S8192x256 : Shape := ⟨2, ![8192, 256]⟩
abbrev S4096x256 : Shape := ⟨2, ![4096, 256]⟩
abbrev S8192x4096 : Shape := ⟨2, ![8192, 4096]⟩
abbrev S2048x256 : Shape := ⟨2, ![2048, 256]⟩
abbrev S2048x1024 : Shape := ⟨2, ![2048, 1024]⟩
abbrev S1024x256 : Shape := ⟨2, ![1024, 256]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S4096x256, .f32⟩
  | .local _ .vmem, ⟨3, _⟩ => ⟨S2048x1024, .f32⟩
  | .local _ .vmem, ⟨4, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S4096x256_S4096_d1 : S4096x256.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.RbfPiece.lean ====
/-
  What the kernel body leaves in its output block, as a value of the two arrays it is handed.

  The body loads its whole block of input rows, loads 1024 consecutive rows of the sample matrix starting at the
  row its grid position names, and stores one value over its whole output block. So the block it leaves is the
  body's arithmetic applied to the input block and to that band of rows of the sample matrix; nothing of the
  block's earlier contents survives. Stated for any float instance.
-/
import proofs.«172612_j7791070675758_2_alg».proof.Proof.Gen.KernelIdeal.Frame
import Idealize.ShloMosaic.Lib.Pipeline.Value
import Idealize.ShloMosaic.Lib.Tactic

noncomputable section

namespace Cert.KernelIdeal.RbfBody

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The band of 1024 rows of the sample matrix the body reads at grid position `i`. -/
abbrev band (i : grid0.Coords) (x1 : Vec F S4096x256 .f32) : Vec F S1024x256 .f32 :=
  View.ld x1 (Rect.unit (s := S4096x256) (k0_off1 i) S1024x256.size (k0_off1_inb i))

/-- The output block after the body: its one covering store's value, the body's arithmetic of the input block `x0`
    and of the band of rows of the sample matrix `x1`. -/
theorem out_eq (c : Dev nD) (i : grid0.Coords) (a2 : Memref sig .tc .vmem S2048x256 .f32) (h2 : a2.IsWhole)
    (a3 : Memref sig .tc .vmem S4096x256 .f32) (h3 : a3.IsWhole) (a4 : Memref sig .tc .vmem S2048x1024 .f32) (h4 : a4.IsWhole)
    (x0 : Vec F S2048x256 .f32) (x1 : Vec F S4096x256 .f32) :
    out0_A_2 c i a2 h2 a3 h3 a4 h4 x0 x1 = k0_pay1 x0 (band i x1) := by
  unfold out0_A_2
  rw [View.read_writes_eq_canon _ _ _ (cover0_A_2 c i a2 h2 a3 h3 a4 h4 x0 x1)]
  unfold kernelRun0_A
  dsimp only
  rw [View.canon_unit_zero zero_offsets]
  simp only [View.readAt_eq_ld, h2.read_unread, h3.read_unread, View.ld_unit_zero (S := S2048x256) zero_offsets]

end Cert.KernelIdeal.RbfBody

end
-- ==== Proof.RbfSpec.lean ====
/-
  The radial-basis value of a pair of rows, and the table of those values over all pairs of rows of two arrays.

  For a row `xr` of the inputs and a row `sr` of the sample matrix, 256 entries each, the value is
      exp (c · max ((∑ xr² + ∑ sr²) − 2 · ∑ xr·sr) 0),
  the squared distance of the two rows written out by the binomial formula, clamped at zero, scaled by the
  single-precision word `c` nearest to −1/1000 and exponentiated, over the extended reals. The two float words
  (`c` and 2) are kept as their words: both programs carry the same words, so they are never evaluated.

  The row counts of the two arrays are symbolic: the same table reads one block of rows against one block of
  sample rows, and the whole inputs against the whole sample matrix; a block of the big table is the small table
  of the corresponding blocks of rows (`pair_congr`).
-/
import Idealize.ShloMosaic.PureOps.Ideal
import Idealize.ShloMosaic.Lib.ValueIdx

noncomputable section

namespace Cert.Rbf

open Idealize.ShloMosaic Idealize.ShloMosaic.ValueIdx
open scoped BigOperators

/-- The value for one pair of rows: the clamped squared distance, scaled and exponentiated. -/
def cell (xr sr : Fin 256 → EReal) : EReal :=
  Ideal.exp (Ideal.ofBits .f32 0xBA83126F#32
    * max (((∑ k : Fin 256, xr k * xr k) + (∑ k : Fin 256, sr k * sr k))
        - Ideal.ofBits .f32 0x40000000#32 * ∑ k : Fin 256, xr k * sr k) 0)

variable {B N : Nat}

/-- The value for row `r` of `x` against row `n` of `s`. -/
def pair (x : (⟨2, ![B, 256]⟩ : Shape).Idx → EReal) (s : (⟨2, ![N, 256]⟩ : Shape).Idx → EReal) (r : Fin B) (n : Fin N) : EReal :=
  cell (fun k => x (ix2 r k)) (fun k => s (ix2 n k))

/-- The table of values over all pairs of rows, as an array indexed by (row of `x`, row of `s`). -/
def table (x : (⟨2, ![B, 256]⟩ : Shape).Idx → EReal) (s : (⟨2, ![N, 256]⟩ : Shape).Idx → EReal) :
    (⟨2, ![B, N]⟩ : Shape).Idx → EReal :=
  fun i => pair x s (i 0) (i 1)

theorem table_ix2 (x : (⟨2, ![B, 256]⟩ : Shape).Idx → EReal) (s : (⟨2, ![N, 256]⟩ : Shape).Idx → EReal) (r : Fin B) (n : Fin N) :
    table x s (ix2 r n) = pair x s r n := rfl

/-- The value depends only on the two rows: arrays that agree on row `r` / `r'` and on row `n` / `n'` give one value. -/
theorem pair_congr {B' N' : Nat} (x : (⟨2, ![B, 256]⟩ : Shape).Idx → EReal) (s : (⟨2, ![N, 256]⟩ : Shape).Idx → EReal)
    (x' : (⟨2, ![B', 256]⟩ : Shape).Idx → EReal) (s' : (⟨2, ![N', 256]⟩ : Shape).Idx → EReal)
    (r : Fin B) (n : Fin N) (r' : Fin B') (n' : Fin N')
    (hx : ∀ k : Fin 256, x (ix2 r k) = x' (ix2 r' k)) (hs : ∀ k : Fin 256, s (ix2 n k) = s' (ix2 n' k)) :
    pair x s r n = pair x' s' r' n' := by
  unfold pair
  rw [funext hx, funext hs]

end Cert.Rbf

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.RbfPayload.lean ====
/-
  The body's arithmetic, read at one entry of its output block.

  For a block `x` of 2048 input rows and a band `s` of 1024 rows of the sample matrix, entry (p, q) of the stored
  value is the radial-basis value of row `p` of `x` against row `q` of `s`: the row sums of squares of `x` are
  spread along the rows of the block, those of `s` are turned into a row and spread down its columns, the matrix
  product of `x` with the transpose of `s` (the roundings to the narrow format on the way in are the identity on
  the extended reals) is the sum over k of x (p, k) · s (q, k), and the rest is pointwise.
-/
import proofs.«172612_j7791070675758_2_alg».proof.Proof.Gen.KernelIdeal.Skeleton
import proofs.«172612_j7791070675758_2_alg».proof.Proof.RbfSpec
import proofs.«172612_j7791070675758_2_alg».proof.Proof.LibRowLayout
import proofs.«172612_j7791070675758_2_alg».proof.Proof.LibRowsDot
import Idealize.ShloMosaic.Lib.ValueLayout
import Idealize.ShloMosaic.Lib.ValueIdx
import Idealize.ShloMosaic.PureOps.Ideal.Laws

noncomputable section

namespace Cert.KernelIdeal.RbfArith

open Cert.KernelIdeal Cert.KernelIdeal.Gen Idealize.ShloMosaic Idealize.ShloMosaic.ValueIdx
open Cert.KernelIdeal.MvnKernel

/-- Entry (p, q) of the stored value is the radial-basis value of row `p` of the input block against row `q` of the
    band of sample rows. -/
theorem pay_apply (x : Vec Ideal S2048x256 .f32) (s : Vec Ideal S1024x256 .f32) (p : Fin 2048) (q : Fin 1024) :
    k0_pay1 (F := Ideal) x s (ix2 p q) = Cert.Rbf.pair (B := 2048) (N := 1024) x s p q := by
  unfold k0_pay1 Cert.Rbf.pair Cert.Rbf.cell
  dsimp only
  show Ideal.exp (Ideal.ofBits .f32 0xBA83126F#32 * max (_ + _ - Ideal.ofBits .f32 0x40000000#32 * _) (Ideal.ofBits .f32 0x00000000#32)) = _
  refine congrArg Ideal.exp (congrArg (Ideal.ofBits .f32 0xBA83126F#32 * ·) ?_)
  refine congr (congrArg max (congr (congrArg HSub.hSub (congr (congrArg HAdd.hAdd ?_) ?_))
    (congrArg (Ideal.ofBits .f32 0x40000000#32 * ·) ?_))) Ideal.ofBits_zero_f32
  · -- the row sums of squares of the input block, made a column and spread along the rows
    exact (broadcastTo_a1_ab_apply _ _ p q).trans ((shapeCast_a_a1_apply _ _ p 0).trans
      (multiReduction_add_row (mulf x x) _ _ _ _ p))
  · -- the row sums of squares of the band, made a column, transposed to a row and spread down the columns
    exact (broadcastTo_1b_ab_apply _ _ p q).trans ((transpose_ix2_apply _ _ (0 : Fin 1) q).trans
      ((shapeCast_a_a1_apply _ _ q 0).trans (multiReduction_add_row (mulf s s) _ _ _ _ q)))
  · -- the product of the block with the transposed band
    exact (Cert.Lib.RowsDot.matmul_zero_apply _ rfl none _ _ (ix2 p q)).trans (Cert.Lib.RowsDot.rowsDot_ix2 _ _ p q)

end Cert.KernelIdeal.RbfArith

end
-- ==== Proof.RbfBlocks.lean ====
/-
  From the blocks the grid points write to the whole result array.

  The grid is 4 × 4: point (i, j) writes block (i, j) of the [8192, 4096] result, 2048 rows by 1024 columns. Its
  input block is rows 2048·i … of the inputs, and the band of the sample matrix it reads is rows 1024·j …, so what
  it writes is the table of radial-basis values of those rows — block (i, j) of the table of the whole inputs
  against the whole sample matrix. The sixteen blocks tile the result, so the result array ends holding that table.
-/
import proofs.«172612_j7791070675758_2_alg».proof.Proof.Gen.KernelIdeal.Value
import proofs.«172612_j7791070675758_2_alg».proof.Proof.RbfPiece
import proofs.«172612_j7791070675758_2_alg».proof.Proof.RbfPayload

noncomputable section

namespace Cert.KernelIdeal.RbfValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The table of radial-basis values of the whole inputs against the whole sample matrix, as contents of the result array. -/
abbrev result (c : Dev nD) : Buf (Elt Ideal) ((c : Thread nD τ).loc main_v0) :=
  Cert.Rbf.table (B := 8192) (N := 4096) (m ((c : Thread nD τ).loc main_arg0)) (m ((c : Thread nD τ).loc main_arg1))

/-- The block indices of the three windows and the band's first row, at every grid point: the input block moves
    with the output's row block, the sample matrix is one block, and the band starts at 1024 times the output's
    column block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ k0_off1 (grid0.coords t) (0 : Fin 2) = win0_2.index t (1 : Fin 2) * 1024
    ∧ k0_off1 (grid0.coords t) (1 : Fin 2) = 0
    ∧ win0_2.index t (0 : Fin 2) ≤ 3 ∧ win0_2.index t (1 : Fin 2) ≤ 3 :=
  (by decide +kernel : ∀ t : Fin grid0.N, _)

/-- Every block of the result is some grid point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- Entry (p, q) of what point `t` computes is the table's entry at the block's position. -/
theorem block_entry (c : Dev nD) (t : Fin cfg0.N) (p : Fin 2048) (q : Fin 1024) :
    k0_pay1 (F := Ideal) (iblk m c 0 t) (RbfBody.band (grid0.coords t) (iblk m c 1 t)) (ix2 p q)
      = result m c (((cfg0.win 2).blk t).view.emb (ix2 p q)) := by
  obtain ⟨e0, e1, e2, e3, e4, e5, -, -⟩ := idx_facts t
  refine (RbfArith.pay_apply _ _ p q).trans ?_
  show _ = Cert.Rbf.pair _ _ _ _
  refine Cert.Rbf.pair_congr _ _ _ _ p q _ _ (fun k => ?_) (fun k => ?_)
  · -- row p of the input block is row 2048·(row block) + p of the inputs
    show V m c main_arg0 (((cfg0.win 0).blk t).view.emb (ix2 p k)) = _
    refine congrArg (m ((c : Thread nD τ).loc main_arg0)) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  · -- row q of the band is row 1024·(column block) + q of the sample matrix
    show V m c main_arg1 (((cfg0.win 1).blk t).view.emb ((Rect.unit (s := S4096x256) (k0_off1 (grid0.coords t)) S1024x256.size
      (k0_off1_inb (grid0.coords t))).idx (ix2 q k))) = _
    refine congrArg (m ((c : Thread nD τ).loc main_arg1)) (funext fun a => Fin.ext ?_)
    match a with
    | ⟨0, _⟩ => show win0_1.index t (0 : Fin 2) * 4096 + 1 * (k0_off1 (grid0.coords t) (0 : Fin 2) + 1 * q.val) = win0_2.index t (1 : Fin 2) * 1024 + 1 * q.val; omega
    | ⟨1, _⟩ => show win0_1.index t (1 : Fin 2) * 256 + 1 * (k0_off1 (grid0.coords t) (1 : Fin 2) + 1 * k.val) = k.val; omega

/-- What point `t` writes back is block `t` of the table. -/
theorem flushed_eq (c : Dev nD) (t : Fin cfg0.N) :
    (dats m 0 c).flushed 2 t = ((cfg0.win 2).blk t).view.read (Elt Ideal) (result m c) := by
  rw [Value.flushed2_A, RbfBody.out_eq]
  funext j
  obtain ⟨p, q, rfl⟩ : ∃ (p : Fin 2048) (q : Fin 1024), j = ix2 p q := ⟨j 0, j 1, eq_ix2 j⟩
  exact block_entry m c t p q

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every index of the result lies in the block of the point whose block indices are its coordinates' quotients
    by the block's extents. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The result array after the run is the table. -/
theorem final (c : Dev nD) : (dats m 0 c).arrAt 2 cfg0.N = result m c :=
  (dats m 0 c).arrAt_eq_of_cover 2 (result m c) (fun t _ => flushed_eq m c t) cover

/-- The kernel's run: the result array ends at the table of its two arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RbfValue

end
-- ==== Proof.RbfReference.lean ====
/-
  The reference computes the table of radial-basis values of the whole inputs against the whole sample matrix.

  Read one operation at a time at an index (r, n): the row sums of squares are broadcast along their own axis, the
  product of the inputs with the transposed sample matrix is the sum over k of inputs (r, k) · samples (n, k), and
  the remaining operations are pointwise. The sums start from the zero word, which is the real zero.
-/
import proofs.«172612_j7791070675758_2_alg».proof.Proof.Gen.ReferenceIdeal.Read
import proofs.«172612_j7791070675758_2_alg».proof.Proof.RbfSpec

noncomputable section

namespace Cert.ReferenceIdeal.RbfValue

open Cert.ReferenceIdeal Cert.ReferenceIdeal.Read Idealize.ShloMosaic Idealize.ShloMosaic.ValueIdx

/-- Entry (r, n) of the spread row sums of the inputs reads row `r`. -/
theorem idx_x (r : Fin 8192) (n : Fin 4096) (k : Fin 256) :
    idx_main_v1 (idx_main_v2 (idx_main_v7 (ix2 r n))) k = ix2 r k :=
  funext fun a => Fin.ext (by match a with | ⟨0, _⟩ => rfl | ⟨1, _⟩ => rfl)
/-- Entry (r, n) of the spread row sums of the sample matrix reads row `n`. -/
theorem idx_s (r : Fin 8192) (n : Fin 4096) (k : Fin 256) :
    idx_main_v4 (idx_main_v6 (idx_main_v8 (ix2 r n))) k = ix2 n k :=
  funext fun a => Fin.ext (by match a with | ⟨0, _⟩ => rfl | ⟨1, _⟩ => rfl)
/-- Entry (r, n) of the product reads row `r` of the inputs … -/
theorem idx_l (r : Fin 8192) (n : Fin 4096) (k : Fin 256) : lidx_main_v5 (ix2 r n) k = ix2 r k :=
  funext fun a => Fin.ext (by match a with | ⟨0, _⟩ => rfl | ⟨1, _⟩ => rfl)
/-- … against row `n` of the sample matrix. -/
theorem idx_r (r : Fin 8192) (n : Fin 4096) (k : Fin 256) : ridx_main_v5 (ix2 r n) k = ix2 n k :=
  funext fun a => Fin.ext (by match a with | ⟨0, _⟩ => rfl | ⟨1, _⟩ => rfl)

/-- The reference's result is the table of radial-basis values of its two arguments. -/
theorem result_eq (x0 : (⟨S8192x256, .f32⟩ : BufTy).Contents (Elt Ideal)) (x1 : (⟨S4096x256, .f32⟩ : BufTy).Contents (Elt Ideal)) :
    val_main_v17 (F := Ideal) x0 x1 = Cert.Rbf.table (B := 8192) (N := 4096) x0 x1 := by
  funext i
  obtain ⟨r, n, rfl⟩ : ∃ (r : Fin 8192) (n : Fin 4096), i = ix2 r n := ⟨i 0, i 1, eq_ix2 i⟩
  rw [Cert.Rbf.table_ix2]
  rw [val_main_v17_apply, val_main_v16_apply, val_main_v15_apply, val_main_cst_3_apply, val_main_v14_apply,
    val_main_v12_apply, val_main_v13_apply, val_main_cst_2_apply, val_main_v9_apply, val_main_v11_apply,
    val_main_v10_apply, val_main_cst_1_apply, val_main_v5_apply, val_main_v7_apply, val_main_v2_apply,
    val_main_v1_apply, val_main_v8_apply, val_main_v6_apply, val_main_v4_apply, val_main_cst_apply,
    val_main_cst_0_apply]
  simp only [val_main_v0_apply, val_main_v3_apply, idx_x, idx_s, idx_l, idx_r, Ideal.hostUnary_exp_def, Ideal.mulf_def,
    Ideal.maximumf_def, Ideal.subf_def, Ideal.addf_def, Ideal.ofBits_def, Ideal.ofBits_zero_f32, zero_add]
  rfl

end Cert.ReferenceIdeal.RbfValue

end
-- ==== Proof.lean ====
/-
  A radial-basis kernel against a fixed sample matrix: out[b, n] = exp (c · max (‖x_b‖² + ‖s_n‖² − 2 · x_b·s_n, 0)) for
  inputs x : [8192, 256] and samples s : [4096, 256], with c the single-precision word nearest to −1/1000.

  The kernel computes the result in sixteen blocks of 2048 × 1024, each from a block of 2048 input rows and a band
  of 1024 sample rows: row sums of squares of both, the product of the block with the transposed band (its operands
  rounded to a narrower format on the way in, which is the identity on the extended reals), and the pointwise
  clamp, scale and exponential. The reference computes the same formula on the whole arrays with a `dot_general`
  and two host sums. On the extended reals both are, entry by entry, the same expression of the same two rows, with
  the same float words; a sum started from the zero word is the sum. No algebraic law beyond that is used, so the
  precondition (finite inputs) is never opened.

  Modules: RbfSpec (the value of a pair of rows and the table of values), RbfReference (the reference's result is
  the table), RbfPayload (the body's arithmetic at an entry of its block), RbfPiece (what the body leaves in its
  output block), RbfBlocks (the blocks tile the result: the kernel's result is the table), LibRowLayout and
  LibRowsDot (layout operations and a product along rows, read at an index). The three frames are the programs'
  own runs; the idealization rewrote nothing.
-/
import proofs.«172612_j7791070675758_2_alg».proof.Defs
import proofs.«172612_j7791070675758_2_alg».proof.Proof.Gen.Kernel
import proofs.«172612_j7791070675758_2_alg».proof.Proof.Gen.Kernel.Frame
import proofs.«172612_j7791070675758_2_alg».proof.Proof.Gen.KernelIdeal
import proofs.«172612_j7791070675758_2_alg».proof.Proof.Gen.KernelIdeal.Frame
import proofs.«172612_j7791070675758_2_alg».proof.Proof.Gen.KernelIdeal.Value
import proofs.«172612_j7791070675758_2_alg».proof.Proof.Gen.ReferenceIdeal
import proofs.«172612_j7791070675758_2_alg».proof.Proof.Gen.ReferenceIdeal.Run
import proofs.«172612_j7791070675758_2_alg».proof.Proof.Gen.ReferenceIdeal.Read
import proofs.«172612_j7791070675758_2_alg».proof.Proof.Gen.Pre_finite_inputs
import proofs.«172612_j7791070675758_2_alg».proof.Proof.RbfBlocks
import proofs.«172612_j7791070675758_2_alg».proof.Proof.RbfReference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the table of radial-basis values of the inputs against the sample
    matrix: the kernel block by block, the reference in one piece. -/
theorem algebraic : Cert.algebraic_KernelIdeal_ReferenceIdeal := by
  intro m ρ m' ρ' _ hagree
  refine ⟨fun c => Cert.KernelIdeal.RbfValue.result m c, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RbfValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
